-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S512x512 : Shape := ⟨2, ![512, 512]⟩
abbrev S512 : Shape := ⟨1, ![512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S32x1024x512 .f32) (main_arg1 : FVec F S32x1024x512 .f32) (main_arg2 : FVec F S512x512 .f32) (main_arg3 : FVec F S512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32x1024x512 : Shape := ⟨3, ![32, 1024, 512]⟩
abbrev S512x512 : Shape := ⟨2, ![512, 512]⟩
abbrev S512 : Shape := ⟨1, ![512]⟩
abbrev S32x1024x1024 : Shape := ⟨3, ![32, 1024, 1024]⟩
abbrev S1x512x512 : Shape := ⟨3, ![1, 512, 512]⟩
abbrev S1x1024x512 : Shape := ⟨3, ![1, 1024, 512]⟩
abbrev S1x512x1024 : Shape := ⟨3, ![1, 512, 1024]⟩
abbrev S1024x512 : Shape := ⟨2, ![1024, 512]⟩
abbrev S1x512 : Shape := ⟨2, ![1, 512]⟩
abbrev S512x1024 : Shape := ⟨2, ![512, 1024]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S512x512, .f32⟩
  | .hbm, ⟨3, _⟩ => ⟨S512, .f32⟩
  | .hbm, ⟨4, _⟩ => ⟨S32x1024x1024, .f32⟩
  | .hbm, ⟨5, _⟩ => ⟨S32x1024x1024, .f32⟩
  | .local _ .vmem, ⟨0, _⟩ => ⟨S1x512x512, .f32⟩
  | .local _ .vmem, ⟨1, _⟩ => ⟨S1x512x512, .f32⟩
  | .local _ .vmem, ⟨2, _⟩ => ⟨S1x1024x512, .f32⟩
  | .local _ .vmem, ⟨3, _⟩ => ⟨S1x1024x512, .f32⟩
  | .local _ .vmem, ⟨4, _⟩ => ⟨S512x512, .f32⟩
  | .local _ .vmem, ⟨5, _⟩ => ⟨S512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x512, .f32⟩
  | .local _ .vmem, ⟨9, _⟩ => ⟨S1x1024x512, .f32⟩
  | .local _ .vmem, ⟨10, _⟩ => ⟨S1024x512, .bf16⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x1024_S512 : S512x1024.Reduces [1] S512
  shapeCasts_S512_S512x1 : S512.ShapeCasts S512x1
  broadcasts_S512x1_S512x1024 : S512x1.Broadcasts S512x1024
  inb_S1x512x1024_S1x512x512_0_0_0 : ∀ a, (![0, 0, 0] : Fin 3 → Nat) a + S1x512x512.size a ≤ S1x512x1024.size a
  shapeCasts_S512x512_S1x512x512 : S512x512.ShapeCasts S1x512x512
  inb_S1x512x1024_S1x512x512_0_0_512 : ∀ a, (![0, 0, 512] : Fin 3 → Nat) a + S1x512x512.size a ≤ S1x512x1024.size a
  transposes_S512x1024_p1_0_S1024x512 : S512x1024.Transposes [1, 0] S1024x512
  shapeCasts_S1024x512_S1x1024x512 : S1024x512.ShapeCasts S1x1024x512
  dot_S1024x512_S512x512_S1024x512_1_1_0_0_n_n_wf : DotDims.WF S1024x512 S512x512 S1024x512 [1] [1] [0] [0] [] []
  dot_S512x512_S1024x512_S512x1024_1_1_0_0_n_n_wf : DotDims.WF S512x512 S1024x512 S512x1024 [1] [1] [0] [0] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x1024x512.size a
  hwx0_0 : ∀ i : grid0.Coords, EltTy.bits .f32 = 32 ∨ (Rect.block (s := S32x1024x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S32x1024x512.size a
  hwx0_1 : ∀ i : grid0.Coords, EltTy.bits .f32 = 32 ∨ (Rect.block (s := S32x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S32x1024x1024.size a
  hwx0_4 : ∀ i : grid0.Coords, EltTy.bits .f32 = 32 ∨ (Rect.block (s := S32x1024x1024) S1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S32x1024x1024.size a
  hwx0_5 : ∀ i : grid0.Coords, EltTy.bits .f32 = 32 ∨ (Rect.block (s := S32x1024x1024) S1x1024x512.size (cc0_transform_5 i) (hinb0_5 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S512x512 : Shape := ⟨2, ![512, 512]⟩
abbrev S512 : Shape := ⟨1, ![512]⟩
abbrev S1x1x512 : Shape := ⟨3, ![1, 1, 512]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S512x512, .f32⟩
  | .hbm, ⟨3, _⟩ => ⟨S512, .f32⟩
  | .hbm, ⟨4, _⟩ => ⟨S32x1024x512, .f32⟩
  | .hbm, ⟨5, _⟩ => ⟨S1x1x512, .f32⟩
  | .hbm, ⟨6, _⟩ => ⟨S32x1024x512, .f32⟩
  | .hbm, ⟨7, _⟩ => ⟨S32x1024x512, .f32⟩
  | .hbm, ⟨8, _⟩ => ⟨S32x1024x1024, .f32⟩
  | .hbm, ⟨9, _⟩ => ⟨S_, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024x1, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024, .f32⟩
  | .hbm, ⟨20, _⟩ => ⟨S32x1024x1, .f32⟩
  | .hbm, ⟨21, _⟩ => ⟨S32x1024x1024, .f32⟩
  | .hbm, ⟨22, _⟩ => ⟨S32x1024x1024, .f32⟩
  | .hbm, ⟨23, _⟩ => ⟨S32x1024x512, .f32⟩
  | .hbm, ⟨24, _⟩ => ⟨S32x1024x1024, .f32⟩
  | .hbm, ⟨25, _⟩ => ⟨S32x1024x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  concatenates_S32x1024x512_S32x1024x512_S32x1024x1024_d2 : Shape.Concatenates [S32x1024x512, S32x1024x512] S32x1024x1024 2
  transposes_S32x1024x1024_S32x1024x1024_0_2_1 : S32x1024x1024.Transposes [0, 2, 1] S32x1024x1024
  dot_S32x1024x512_S512x512_S32x1024x512_2_1_01_0_n_n_wf : DotDims.WF S32x1024x512 S512x512 S32x1024x512 [2] [1] [0, 1] [0] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_1_01_0_n_n : DotDims S32x1024x512 S512x512 S32x1024x512 where
  lhsContracting := [2]
  rhsContracting := [1]
  lhsNonContracting := [0, 1]
  rhsNonContracting := [0]
  lhsBatch := []
  rhsBatch := []
  wf := dot_S32x1024x512_S512x512_S32x1024x512_2_1_01_0_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.Spec.lean ====
/-
  The attention map both programs compute, stated once over the extended reals, index by index.

  For a batch entry b, a query row q, a key row v and a feature d:
    keys b v e     = (∑ d, value[b,v,d] · w[e,d]) + bias[e]
    scores b q v   = ∑ d, query[b,q,d] · keys b v d
    align b q v    = exp (scores b q v − M) / ∑ u, exp (scores b q u − M),   M the maximum of the row scores b q ·
    context b q d  = ∑ v, align b q v · value[b,v,d]
  The first result is context and query joined along the last axis; the second is align with its last two axes swapped.
  The row maximum is a fold of max from the f32 word of −∞; that word is never evaluated, it is the same on both sides.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The seed of a row maximum: the f32 word of −∞ read as an extended real. -/
abbrev negInf : EReal := Ideal.ofBits .f32 0xFF800000#32

/-- The maximum of a row, folded from −∞. -/
def rowMax {n : ℕ} (s : Fin n → EReal) : EReal := (Finset.univ : Finset (Fin n)).fold max negInf s

/-- Softmax of one row of scores: subtract the row's maximum, exponentiate, divide by the sum of the exponentials. -/
def softmaxRow {n : ℕ} (s : Fin n → EReal) (v : Fin n) : EReal :=
  Ideal.div (Ideal.exp (s v - rowMax s)) (∑ u : Fin n, Ideal.exp (s u - rowMax s))

variable (Q V : (⟨3, ![32, 1024, 512]⟩ : Shape).Idx → EReal) (W : (⟨2, ![512, 512]⟩ : Shape).Idx → EReal)
  (B : (⟨1, ![512]⟩ : Shape).Idx → EReal)

/-- The projected keys: a row of value against the rows of the weight, plus the bias. -/
def keys (b : Fin 32) (v : Fin 1024) (e : Fin 512) : EReal :=
  (∑ d : Fin 512, V (ix3 b v d) * W (ix2 e d)) + B (ix1 e)

/-- The scores: a row of query against the rows of the projected keys. -/
def scores (b : Fin 32) (q v : Fin 1024) : EReal :=
  ∑ d : Fin 512, Q (ix3 b q d) * keys V W B b v d

/-- The alignment: the softmax of each row of scores. -/
def align (b : Fin 32) (q v : Fin 1024) : EReal := softmaxRow (scores Q V W B b q) v

/-- The context: each row of the alignment against the columns of value. -/
def context (b : Fin 32) (q : Fin 1024) (d : Fin 512) : EReal :=
  ∑ v : Fin 1024, align Q V W B b q v * V (ix3 b v d)

/-- The first result: context in the first 512 lanes, the query row in the last 512. -/
def outCtx : (⟨3, ![32, 1024, 1024]⟩ : Shape).Idx → EReal := fun i =>
  if h : (i 2).val < 512 then context Q V W B (i 0) (i 1) ⟨(i 2).val, h⟩
  else Q (ix3 (i 0) (i 1) ⟨(i 2).val - 512, by have h2 : (i 2).val < 1024 := (i 2).isLt; omega⟩)

/-- The second result: the alignment with key row and query row swapped. -/
def outAlignT : (⟨3, ![32, 1024, 1024]⟩ : Shape).Idx → EReal := fun i =>
  align Q V W B (i 0) (i 2) (i 1)

/-- Two rows that agree entry by entry have the same softmax. -/
theorem softmaxRow_congr {n : ℕ} {s s' : Fin n → EReal} (h : ∀ v, s v = s' v) (v : Fin n) :
    softmaxRow s v = softmaxRow s' v := by
  rw [show s = s' from funext h]

/-- The word of −∞ is below every extended real: taking the maximum with it changes nothing. -/
theorem max_negInf (y : EReal) : max negInf y = y := by
  show max (Ideal.ofBits .f32 0xFF800000#32) y = y
  simp [Ideal.ofBits, Ideal.ieee]

end Cert.Attn

end
-- ==== Proof.Pieces.lean ====
/-
  What each of the kernel body's two control cases leaves behind, read back as values.

  At the first query tile of a batch entry the body projects the keys from the value block, the weight and the bias,
  stores them in the scratch buffer and reads them back; at the second tile it finds the keys the first tile left.
  In both cases it then writes the context into the low 512 lanes of the first output block, the query tile into its
  high 512 lanes, and the transposed alignment into the second output block. Each lemma below names one of those
  stored values as the body's arithmetic applied to the blocks it loaded.
-/
import proofs.«152004_j23467701305764_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Attn.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- An index of the first output block in its low 512 lanes. -/
abbrev lo (r l : Fin 512) : S1x512x1024.Idx := ix3 (0 : Fin 1) r (⟨l.val, by have := l.isLt; omega⟩ : Fin 1024)
/-- An index of the first output block in its high 512 lanes. -/
abbrev hi (r l : Fin 512) : S1x512x1024.Idx := ix3 (0 : Fin 1) r (⟨l.val + 512, by have := l.isLt; omega⟩ : Fin 1024)

/-- The high-lane index is lane `l` of the half-width rectangle at lane offset 512. -/
theorem hi_eq_emb (inb : ∀ a, (![0, 0, 512] : Fin 3 → Nat) a + (![1, 512, 512] : Fin 3 → Nat) a ≤ S1x512x1024.size a) (r l : Fin 512) :
    hi r l = (Rect.unit (s := S1x512x1024) ![0, 0, 512] ![1, 512, 512] inb).emb (ix3 (0 : Fin 1) r l) :=
  funext fun a => Fin.ext (by
    match a with
    | ⟨0, _⟩ => rfl
    | ⟨1, _⟩ => show r.val = 0 + 1 * r.val; omega
    | ⟨2, _⟩ => show l.val + 512 = 512 + 1 * l.val; omega)

/-- The low-lane index is lane `l` of the half-width rectangle at lane offset 0. -/
theorem lo_eq_emb (inb : ∀ a, (![0, 0, 0] : Fin 3 → Nat) a + (![1, 512, 512] : Fin 3 → Nat) a ≤ S1x512x1024.size a) (r l : Fin 512) :
    lo r l = (Rect.unit (s := S1x512x1024) ![0, 0, 0] ![1, 512, 512] inb).emb (ix3 (0 : Fin 1) r l) :=
  funext fun a => Fin.ext (by
    match a with
    | ⟨0, _⟩ => rfl
    | ⟨1, _⟩ => show r.val = 0 + 1 * r.val; omega
    | ⟨2, _⟩ => show l.val = 0 + 1 * l.val; omega)

/-- A low-lane index lies outside the rectangle of the high lanes. -/
theorem lo_not_mem (inb : ∀ a, (![0, 0, 512] : Fin 3 → Nat) a + (![1, 512, 512] : Fin 3 → Nat) a ≤ S1x512x1024.size a) (r l : Fin 512) :
    lo r l ∉ (Rect.unit (s := S1x512x1024) ![0, 0, 512] ![1, 512, 512] inb).set := fun hm => by
  have h := (Rect.mem_set_unit.mp hm) 2
  have h' : 512 ≤ l.val := h.1
  have := l.isLt
  omega

/-- At a low-lane index, a last store into the high lanes is not seen: the earlier stores decide. -/
theorem canon_skip_hi {Val : EltTy → Type} [∀ e, Nonempty (Val e)] {e : EltTy}
    (inb : ∀ a, (![0, 0, 512] : Fin 3 → Nat) a + (![1, 512, 512] : Fin 3 → Nat) a ≤ S1x512x1024.size a)
    (w : (Rect.unit (s := S1x512x1024) ![0, 0, 512] ![1, 512, 512] inb).shape.Idx → Val e)
    (L : List (View.Piece Val S1x512x1024 e)) (r l : Fin 512) :
    View.canon ((⟨Rect.unit (s := S1x512x1024) ![0, 0, 512] ![1, 512, 512] inb, w⟩ : View.Piece Val S1x512x1024 e) :: L) (lo r l)
      = View.canon L (lo r l) :=
  View.canon_cons_of_not_mem (⟨Rect.unit (s := S1x512x1024) ![0, 0, 512] ![1, 512, 512] inb, w⟩ : View.Piece Val S1x512x1024 e) L
    (lo_not_mem inb r l)

/-! ## The second tile of a batch entry: the keys are found in the scratch buffer -/

/-- The scratch buffer keeps what it held. -/
theorem scratch_B (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : ¬cond0_0 i) (x0 : Vec F S1x512x512 .f32) (x1 : Vec F S1x1024x512 .f32) (x2 : Vec F S512x512 .f32) (x3 : Vec F S512 .f32) (xs : Vec F S1024x512 .bf16) :
    sout0_B_0 c i a2 h2 a3 h3 a4 h4 a5 h5 a6 h6 a7 h7 a8 h8 hc x0 x1 x2 x3 xs = xs := rfl

/-- The second output block: the transposed alignment of the query tile against the keys found. -/
theorem out5_B (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : ¬cond0_0 i) (x0 : Vec F S1x512x512 .f32) (x1 : Vec F S1x1024x512 .f32) (x2 : Vec F S512x512 .f32) (x3 : Vec F S512 .f32) (xs : Vec F S1024x512 .bf16) :
    out0_B_5 c i a2 h2 a3 h3 a4 h4 a5 h5 a6 h6 a7 h7 a8 h8 hc x0 x1 x2 x3 xs = k0_pay1 (k0_pay7 x0 xs) := by
  unfold out0_B_5
  rw [View.read_writes_eq_canon _ _ _ (cover0_B_5 c i a2 h2 a3 h3 a4 h4 a5 h5 a6 h6 a7 h7 a8 h8 hc x0 x1 x2 x3 xs)]
  unfold kernelRun0_B
  dsimp only
  sl_unfold_words
  rw [View.canon_unit_zero hz3]
  simp only [View.readAt_eq_ld, h2.read_unread, h8.read_unread, View.ld_unit_zero (S := S1x512x512) hz3,
    View.ld_unit_zero (S := S1024x512) hz2]

/-- The first output block, low lanes: the context. -/
theorem out4_B_lo (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : ¬cond0_0 i) (x0 : Vec F S1x512x512 .f32) (x1 : Vec F S1x1024x512 .f32) (x2 : Vec F S512x512 .f32) (x3 : Vec F S512 .f32) (xs : Vec F S1024x512 .bf16) (r l : Fin 512) :
    out0_B_4 c i a2 h2 a3 h3 a4 h4 a5 h5 a6 h6 a7 h7 a8 h8 hc x0 x1 x2 x3 xs (lo r l) = k0_pay5 x1 x0 xs (ix3 (0 : Fin 1) r l) := by
  unfold out0_B_4
  rw [View.read_writes_eq_canon _ _ _ (cover0_B_4 c i a2 h2 a3 h3 a4 h4 a5 h5 a6 h6 a7 h7 a8 h8 hc x0 x1 x2 x3 xs)]
  unfold kernelRun0_B
  dsimp only
  sl_unfold_words
  rw [canon_skip_hi inb_S1x512x1024_S1x512x512_0_0_512 _ _ r l]
  rw [lo_eq_emb inb_S1x512x1024_S1x512x512_0_0_0 r l, View.canon_cons_emb]
  simp only [View.readAt_eq_ld, h2.read_unread, h3.read_unread, h8.read_unread, View.ld_unit_zero (S := S1x512x512) hz3,
    View.ld_unit_zero (S := S1x1024x512) hz3, View.ld_unit_zero (S := S1024x512) hz2]

/-- The first output block, high lanes: the query tile itself. -/
theorem out4_B_hi (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : ¬cond0_0 i) (x0 : Vec F S1x512x512 .f32) (x1 : Vec F S1x1024x512 .f32) (x2 : Vec F S512x512 .f32) (x3 : Vec F S512 .f32) (xs : Vec F S1024x512 .bf16) (r l : Fin 512) :
    out0_B_4 c i a2 h2 a3 h3 a4 h4 a5 h5 a6 h6 a7 h7 a8 h8 hc x0 x1 x2 x3 xs (hi r l) = k0_pay6 x0 (ix3 (0 : Fin 1) r l) := by
  unfold out0_B_4
  rw [View.read_writes_eq_canon _ _ _ (cover0_B_4 c i a2 h2 a3 h3 a4 h4 a5 h5 a6 h6 a7 h7 a8 h8 hc x0 x1 x2 x3 xs)]
  unfold kernelRun0_B
  dsimp only
  sl_unfold_words
  rw [hi_eq_emb inb_S1x512x1024_S1x512x512_0_0_512 r l, View.canon_cons_emb]
  simp only [View.readAt_eq_ld, h2.read_unread, View.ld_unit_zero (S := S1x512x512) hz3]

/-! ## The first tile of a batch entry: the keys are projected, stored and read back -/

/-- The scratch buffer ends holding the projected keys. -/
theorem scratch_A (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : cond0_0 i) (x0 : Vec F S1x512x512 .f32) (x1 : Vec F S1x1024x512 .f32) (x2 : Vec F S512x512 .f32) (x3 : Vec F S512 .f32) :
    sout0_A_0 c i a2 h2 a3 h3 a4 h4 a5 h5 a6 h6 a7 h7 a8 h8 hc x0 x1 x2 x3 = k0_pay3 x1 x2 x3 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h3.read_unread, h4.read_unread, h5.read_unread, View.ld_unit_zero (S := S1x1024x512) hz3,
    View.ld_unit_zero (S := S512x512) hz2, View.ld_unit_zero (S := S512) hz1]

/-- The second output block: the transposed alignment of the query tile against the keys just projected. -/
theorem out5_A (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : cond0_0 i) (x0 : Vec F S1x512x512 .f32) (x1 : Vec F S1x1024x512 .f32) (x2 : Vec F S512x512 .f32) (x3 : Vec F S512 .f32) :
    out0_A_5 c i a2 h2 a3 h3 a4 h4 a5 h5 a6 h6 a7 h7 a8 h8 hc x0 x1 x2 x3 = k0_pay1 (k0_pay7 x0 (k0_pay3 x1 x2 x3)) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_unit_zero hz3, View.readCov_unit_zero (S := S1024x512) _ hz2]
  simp only [View.readAt_eq_ld, h2.read_unread, h3.read_unread, h4.read_unread, h5.read_unread, View.ld_unit_zero (S := S1x512x512) hz3,
    View.ld_unit_zero (S := S1x1024x512) hz3, View.ld_unit_zero (S := S512x512) hz2, View.ld_unit_zero (S := S512) hz1]

/-- The first output block, low lanes: the context. -/
theorem out4_A_lo (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : cond0_0 i) (x0 : Vec F S1x512x512 .f32) (x1 : Vec F S1x1024x512 .f32) (x2 : Vec F S512x512 .f32) (x3 : Vec F S512 .f32) (r l : Fin 512) :
    out0_A_4 c i a2 h2 a3 h3 a4 h4 a5 h5 a6 h6 a7 h7 a8 h8 hc x0 x1 x2 x3 (lo r l) = k0_pay5 x1 x0 (k0_pay3 x1 x2 x3) (ix3 (0 : Fin 1) r l) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [canon_skip_hi inb_S1x512x1024_S1x512x512_0_0_512 _ _ r l]
  rw [lo_eq_emb inb_S1x512x1024_S1x512x512_0_0_0 r l, View.canon_cons_emb,
    View.readCov_unit_zero (S := S1024x512) _ hz2]
  simp only [View.readAt_eq_ld, h2.read_unread, h3.read_unread, h4.read_unread, h5.read_unread, View.ld_unit_zero (S := S1x512x512) hz3,
    View.ld_unit_zero (S := S1x1024x512) hz3, View.ld_unit_zero (S := S512x512) hz2, View.ld_unit_zero (S := S512) hz1]

/-- The first output block, high lanes: the query tile itself. -/
theorem out4_A_hi (c : Dev nD) (i : grid0.Coords) (a2 : Memref sig .tc .vmem S1x512x512 .f32) (h2 : a2.IsWhole) (a3 : Memref sig .tc .vmem S1x1024x512 .f32) (h3 : a3.IsWhole) (a4 : Memref sig .tc .vmem S512x512 .f32) (h4 : a4.IsWhole) (a5 : Memref sig .tc .vmem S512 .f32) (h5 : a5.IsWhole) (a6 : Memref sig .tc .vmem S1x512x1024 .f32) (h6 : a6.IsWhole) (a7 : Memref sig .tc .vmem S1x1024x512 .f32) (h7 : a7.IsWhole) (a8 : Memref sig .tc .vmem S1024x512 .bf16) (h8 : a8.IsWhole) (hc : cond0_0 i) (x0 : Vec F S1x512x512 .f32) (x1 : Vec F S1x1024x512 .f32) (x2 : Vec F S512x512 .f32) (x3 : Vec F S512 .f32) (r l : Fin 512) :
    out0_A_4 c i a2 h2 a3 h3 a4 h4 a5 h5 a6 h6 a7 h7 a8 h8 hc x0 x1 x2 x3 (hi r l) = k0_pay6 x0 (ix3 (0 : Fin 1) r l) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [hi_eq_emb inb_S1x512x1024_S1x512x512_0_0_512 r l, View.canon_cons_emb]
  simp only [View.readAt_eq_ld, h2.read_unread, View.ld_unit_zero (S := S1x512x512) hz3]

end Cert.Attn.Pieces

end
-- ==== Proof.Payload.lean ====
/-
  The kernel body's arithmetic read one value at a time, at explicit coordinates, over the extended reals:
  the projected keys (a matrix product plus the bias row), the softmax of the scores row by row, the context
  (the alignment against the value block), the query tile passed through, and the alignment transposed.
  At the extended reals a change of float format is the identity, so only the layout operations, the three
  matrix products and the two row reductions are read.
-/
import proofs.«152004_j23467701305764_2_alg».proof.Proof.Gen.KernelIdeal.Skeleton
import proofs.«152004_j23467701305764_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Pay

open Idealize.ShloMosaic Idealize.ShloMosaic.ValueIdx Cert.KernelIdeal Cert.KernelIdeal.Gen

/-! ## Layout operations at an index -/

section Layout
variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector of 512 entries laid out as a column and broadcast along 1024 lanes reads, at (q, v), entry q. -/
theorem column_apply (x : S512.Idx → α) (hc : S512.ShapeCasts S512x1) (hb : S512x1.Broadcasts S512x1024)
    (q : Fin 512) (v : Fin 1024) : broadcastTo S512x1024 (shapeCast S512x1 x hc) hb (ix2 q v) = x (ix1 q) :=
  (broadcastTo_a1_ab_apply _ hb q v).trans (shapeCast_a_a1_apply x hc q 0)

end Layout

/-! ## The three matrix products at an index -/

theorem mmKeys_apply_l0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem mmKeys_apply_r0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
/-- A product of a [1024,512] and a [512,512] matrix contracting both last axes, into the zero matrix: at (a, b) the sum over k of L[a,k] · R[b,k]. -/
theorem mmKeys_apply (L : S1024x512.Idx → EReal) (R : S512x512.Idx → EReal) (a : Fin 1024) (b : Fin 512) :
    matmul (F := Ideal) (φ₁ := .bf16) (φ₂ := .bf16) dot_S1024x512_S512x512_S1024x512_1_1_0_0_n_n none L R (constant S1024x512 .f32 0x00000000#32) (ix2 a b)
      = ∑ k : Fin 512, L (ix2 a k) * R (ix2 b k) := by
  show FloatOps.matmul (F := Ideal) (φ₁ := .bf16) (φ₂ := .bf16) dot_S1024x512_S512x512_S1024x512_1_1_0_0_n_n none L R (constant S1024x512 .f32 0x00000000#32) (ix2 a b) = _
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 a b) ((ValueIdx.contrEquiv1 dot_S1024x512_S512x512_S1024x512_1_1_0_0_n_n 512 rfl rfl).symm k) = ix2 a k := funext fun c => Fin.ext (by
    match c with
    | ⟨0, _⟩ => exact mmKeys_apply_l0 _ _
    | ⟨1, _⟩ => exact (dot_S1024x512_S512x512_S1024x512_1_1_0_0_n_n.lhsIdx_val_of_single rfl _ _).trans hk)
  have er : dot_S1024x512_S512x512_S1024x512_1_1_0_0_n_n.rhsIdx (ix2 a b) ((ValueIdx.contrEquiv1 dot_S1024x512_S512x512_S1024x512_1_1_0_0_n_n 512 rfl rfl).symm k) = ix2 b k := funext fun c => Fin.ext (by
    match c with
    | ⟨0, _⟩ => exact mmKeys_apply_r0 _ _
    | ⟨1, _⟩ => exact (dot_S1024x512_S512x512_S1024x512_1_1_0_0_n_n.rhsIdx_val_of_single rfl _ _).trans hk)
  rw [el, er]

theorem mmScores_apply_l0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem mmScores_apply_r0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
/-- A product of a [512,512] and a [1024,512] matrix contracting both last axes, into the zero matrix: at (a, b) the sum over k of L[a,k] · R[b,k]. -/
theorem mmScores_apply (L : S512x512.Idx → EReal) (R : S1024x512.Idx → EReal) (a : Fin 512) (b : Fin 1024) :
    matmul (F := Ideal) (φ₁ := .bf16) (φ₂ := .bf16) dot_S512x512_S1024x512_S512x1024_1_1_0_0_n_n none L R (constant S512x1024 .f32 0x00000000#32) (ix2 a b)
      = ∑ k : Fin 512, L (ix2 a k) * R (ix2 b k) := by
  show FloatOps.matmul (F := Ideal) (φ₁ := .bf16) (φ₂ := .bf16) dot_S512x512_S1024x512_S512x1024_1_1_0_0_n_n none L R (constant S512x1024 .f32 0x00000000#32) (ix2 a b) = _
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 a b) ((ValueIdx.contrEquiv1 dot_S512x512_S1024x512_S512x1024_1_1_0_0_n_n 512 rfl rfl).symm k) = ix2 a k := funext fun c => Fin.ext (by
    match c with
    | ⟨0, _⟩ => exact mmScores_apply_l0 _ _
    | ⟨1, _⟩ => exact (dot_S512x512_S1024x512_S512x1024_1_1_0_0_n_n.lhsIdx_val_of_single rfl _ _).trans hk)
  have er : dot_S512x512_S1024x512_S512x1024_1_1_0_0_n_n.rhsIdx (ix2 a b) ((ValueIdx.contrEquiv1 dot_S512x512_S1024x512_S512x1024_1_1_0_0_n_n 512 rfl rfl).symm k) = ix2 b k := funext fun c => Fin.ext (by
    match c with
    | ⟨0, _⟩ => exact mmScores_apply_r0 _ _
    | ⟨1, _⟩ => exact (dot_S512x512_S1024x512_S512x1024_1_1_0_0_n_n.rhsIdx_val_of_single rfl _ _).trans hk)
  rw [el, er]

theorem mmContext_apply_l0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem mmContext_apply_r1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl
/-- A product of a [512,1024] and a [1024,512] matrix contracting the first's last axis with the second's first, into the zero matrix: at (a, b) the sum over k of L[a,k] · R[k,b]. -/
theorem mmContext_apply (L : S512x1024.Idx → EReal) (R : S1024x512.Idx → EReal) (a : Fin 512) (b : Fin 512) :
    matmul (F := Ideal) (φ₁ := .bf16) (φ₂ := .bf16) dot_S512x1024_S1024x512_S512x512_1_0_0_1_n_n none L R (constant S512x512 .f32 0x00000000#32) (ix2 a b)
      = ∑ k : Fin 1024, L (ix2 a k) * R (ix2 k b) := by
  show FloatOps.matmul (F := Ideal) (φ₁ := .bf16) (φ₂ := .bf16) dot_S512x1024_S1024x512_S512x512_1_0_0_1_n_n none L R (constant S512x512 .f32 0x00000000#32) (ix2 a b) = _
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 a b) ((ValueIdx.contrEquiv1 dot_S512x1024_S1024x512_S512x512_1_0_0_1_n_n 1024 rfl rfl).symm k) = ix2 a k := funext fun c => Fin.ext (by
    match c with
    | ⟨0, _⟩ => exact mmContext_apply_l0 _ _
    | ⟨1, _⟩ => exact (dot_S512x1024_S1024x512_S512x512_1_0_0_1_n_n.lhsIdx_val_of_single rfl _ _).trans hk)
  have er : dot_S512x1024_S1024x512_S512x512_1_0_0_1_n_n.rhsIdx (ix2 a b) ((ValueIdx.contrEquiv1 dot_S512x1024_S1024x512_S512x512_1_0_0_1_n_n 1024 rfl rfl).symm k) = ix2 k b := funext fun c => Fin.ext (by
    match c with
    | ⟨0, _⟩ => exact (dot_S512x1024_S1024x512_S512x512_1_0_0_1_n_n.rhsIdx_val_of_single rfl _ _).trans hk
    | ⟨1, _⟩ => exact mmContext_apply_r1 _ _)
  rw [el, er]

/-! ## The two row reductions at an index -/

/-- The reduced index q with coordinate k put back on the lane axis is (q, k). -/
theorem lift_ix1 (h : S512x1024.Reduces [1] S512) (q : Fin 512) (k : Fin (S512x1024.size 1)) :
    h.lift (ix1 q) k = ix2 q ⟨k.val, k.isLt⟩ := by
  funext c; apply Fin.ext
  fin_cases c <;> rfl

/-- A maximum-reduction over the lanes from the word of −∞, at q: the maximum of row q. -/
theorem rowMaxRed_apply (src : S512x1024.Idx → EReal) (h : S512x1024.Reduces [1] S512) (hφ : FKind.Formats .f32)
    (hacc : (0xFF800000#32 : BitVec (FTy.bits .f32)) = FKind.maximumf.neutral .f32 hφ) (q : Fin 512) :
    multiReduction (F := Ideal) .maximumf [1] S512 src 0xFF800000#32 h hφ hacc (ix1 q)
      = Cert.Attn.rowMax (fun u : Fin 1024 => src (ix2 q u)) := by
  refine (Ideal.multiReduction_maximumf_single (φ := .f32) src _ h hφ hacc (ix1 q)).trans ?_
  unfold Cert.Attn.rowMax
  have hf : (src ∘ h.lift (ix1 q)) = fun u : Fin 1024 => src (ix2 q u) :=
    funext fun k => congrArg src (lift_ix1 h q k)
  exact congrArg (fun f => Finset.fold max Cert.Attn.negInf f (Finset.univ : Finset (Fin 1024))) hf

/-- A sum-reduction over the lanes, at q: the sum of row q. -/
theorem rowSumRed_apply (src : S512x1024.Idx → EReal) (h : S512x1024.Reduces [1] S512) (hφ : FKind.Formats .f32)
    (hacc : (0x00000000#32 : BitVec (FTy.bits .f32)) = FKind.add.neutral .f32 hφ) (q : Fin 512) :
    multiReduction (F := Ideal) .add [1] S512 src 0x00000000#32 h hφ hacc (ix1 q)
      = ∑ u : Fin 1024, src (ix2 q u) :=
  (Ideal.multiReduction_add_single (φ := .f32) src _ h hφ hacc (ix1 q)).trans
    (Finset.sum_congr rfl fun k _ => congrArg src (lift_ix1 h q k))

/-! ## The softmax of a scores matrix, row by row -/

/-- The exponential of each score less its row's maximum. -/
theorem expRow_apply (sc : S512x1024.Idx → EReal) (h : S512x1024.Reduces [1] S512) (hφ : FKind.Formats .f32)
    (hacc : (0xFF800000#32 : BitVec (FTy.bits .f32)) = FKind.maximumf.neutral .f32 hφ)
    (hc : S512.ShapeCasts S512x1) (hb : S512x1.Broadcasts S512x1024) (q : Fin 512) (v : Fin 1024) :
    exp (F := Ideal) (φ := .f32) (subf sc (broadcastTo S512x1024
        (shapeCast S512x1 (multiReduction (F := Ideal) .maximumf [1] S512 sc 0xFF800000#32 h hφ hacc) hc) hb)) (ix2 q v)
      = Ideal.exp (sc (ix2 q v) - Cert.Attn.rowMax (fun u : Fin 1024 => sc (ix2 q u))) := by
  show Ideal.exp (sc (ix2 q v) - broadcastTo S512x1024
        (shapeCast S512x1 (multiReduction (F := Ideal) .maximumf [1] S512 sc 0xFF800000#32 h hφ hacc) hc) hb (ix2 q v)) = _
  rw [column_apply, rowMaxRed_apply]

/-- The whole softmax chain at (q, v): the softmax of row q of the scores, at v. -/
theorem softmax_apply (sc : S512x1024.Idx → EReal) (h : S512x1024.Reduces [1] S512) (hφ : FKind.Formats .f32)
    (hacc : (0xFF800000#32 : BitVec (FTy.bits .f32)) = FKind.maximumf.neutral .f32 hφ)
    (hφ' : FKind.Formats .f32) (hacc' : (0x00000000#32 : BitVec (FTy.bits .f32)) = FKind.add.neutral .f32 hφ')
    (hc : S512.ShapeCasts S512x1) (hb : S512x1.Broadcasts S512x1024) (q : Fin 512) (v : Fin 1024) :
    divf (F := Ideal) (φ := .f32)
        (exp (subf sc (broadcastTo S512x1024
          (shapeCast S512x1 (multiReduction (F := Ideal) .maximumf [1] S512 sc 0xFF800000#32 h hφ hacc) hc) hb)))
        (broadcastTo S512x1024 (shapeCast S512x1 (multiReduction (F := Ideal) .add [1] S512
          (exp (subf sc (broadcastTo S512x1024
            (shapeCast S512x1 (multiReduction (F := Ideal) .maximumf [1] S512 sc 0xFF800000#32 h hφ hacc) hc) hb)))
          0x00000000#32 h hφ' hacc') hc) hb) (ix2 q v)
      = Cert.Attn.softmaxRow (fun u : Fin 1024 => sc (ix2 q u)) v := by
  rw [divf_apply, column_apply, rowSumRed_apply, expRow_apply]
  unfold Cert.Attn.softmaxRow
  refine congrArg (Ideal.div _) (Finset.sum_congr rfl fun u _ => ?_)
  exact expRow_apply sc h hφ hacc hc hb q u

/-! ## The payloads -/

/-- The value block viewed as a matrix. -/
theorem pay2_apply (x1 : S1x1024x512.Idx → EReal) (v : Fin 1024) (d : Fin 512) : k0_pay2 (F := Ideal) x1 (ix2 v d) = x1 (ix3 (0 : Fin 1) v d) :=
  shapeCast_1ab_ab_apply x1 _ v d

/-- The projected keys: row v of the value block against row e of the weight, plus bias[e]. -/
theorem pay3_apply (x1 : S1x1024x512.Idx → EReal) (x2 : S512x512.Idx → EReal) (x3 : S512.Idx → EReal)
    (v : Fin 1024) (e : Fin 512) :
    k0_pay3 (F := Ideal) x1 x2 x3 (ix2 v e) = (∑ d : Fin 512, x1 (ix3 (0 : Fin 1) v d) * x2 (ix2 e d)) + x3 (ix1 e) := by
  unfold k0_pay3
  rw [shapeCast_self, truncf_apply, addf_apply]
  refine congrArg₂ (fun s t : EReal => s + t) ?_ ?_
  · refine (mmKeys_apply (k0_pay2 (F := Ideal) x1) x2 v e).trans (Finset.sum_congr rfl fun d _ => ?_)
    exact congrArg (· * x2 (ix2 e d)) (pay2_apply x1 v d)
  · exact (broadcastTo_1b_ab_apply _ _ v e).trans (shapeCast_a_1a_apply x3 _ 0 e)

/-- The alignment: the softmax of row q of the scores (query tile against the keys), at v. -/
theorem pay4_apply (x0 : S1x512x512.Idx → EReal) (ks : S1024x512.Idx → EReal) (q : Fin 512) (v : Fin 1024) :
    k0_pay4 (F := Ideal) x0 ks (ix2 q v)
      = Cert.Attn.softmaxRow (fun u : Fin 1024 => ∑ d : Fin 512, x0 (ix3 (0 : Fin 1) q d) * ks (ix2 u d)) v := by
  have hsc : ∀ u : Fin 1024,
      matmul (F := Ideal) (φ₁ := .bf16) (φ₂ := .bf16) dot_S512x512_S1024x512_S512x1024_1_1_0_0_n_n none
        (shapeCast S512x512 x0 shapeCasts_S1x512x512_S512x512) ks (constant S512x1024 .f32 0x00000000#32) (ix2 q u)
        = ∑ d : Fin 512, x0 (ix3 (0 : Fin 1) q d) * ks (ix2 u d) := fun u =>
    (mmScores_apply _ ks q u).trans (Finset.sum_congr rfl fun d _ =>
      congrArg (· * ks (ix2 u d)) (shapeCast_1ab_ab_apply x0 _ q d))
  unfold k0_pay4
  exact (softmax_apply _ _ _ _ _ _ _ _ q v).trans (Cert.Attn.softmaxRow_congr hsc v)

/-- The context: row q of the alignment against column d of the value block. -/
theorem pay5_apply (x1 : S1x1024x512.Idx → EReal) (x0 : S1x512x512.Idx → EReal) (ks : S1024x512.Idx → EReal)
    (q d : Fin 512) :
    k0_pay5 (F := Ideal) x1 x0 ks (ix3 (0 : Fin 1) q d)
      = ∑ v : Fin 1024, k0_pay4 (F := Ideal) x0 ks (ix2 q v) * x1 (ix3 (0 : Fin 1) v d) := by
  unfold k0_pay5
  refine (shapeCast_ab_1ab_apply _ _ (0 : Fin 1) q d).trans ?_
  refine (mmContext_apply (k0_pay4 (F := Ideal) x0 ks) (k0_pay2 (F := Ideal) x1) q d).trans (Finset.sum_congr rfl fun v _ => ?_)
  exact congrArg (k0_pay4 (F := Ideal) x0 ks (ix2 q v) * ·) (pay2_apply x1 v d)

/-- The query tile, viewed as a matrix and back, is itself. -/
theorem pay6_apply (x0 : S1x512x512.Idx → EReal) (q d : Fin 512) :
    k0_pay6 (F := Ideal) x0 (ix3 (0 : Fin 1) q d) = x0 (ix3 (0 : Fin 1) q d) :=
  congrFun (shapeCast_shapeCast x0 shapeCasts_S1x512x512_S512x512 shapeCasts_S512x512_S1x512x512) _

/-- The alignment transposed and given a leading unit axis reads, at (0, v, q), the alignment at (q, v). -/
theorem pay17_apply (x0 : S1x512x512.Idx → EReal) (ks : S1024x512.Idx → EReal) (v : Fin 1024) (q : Fin 512) :
    k0_pay1 (F := Ideal) (k0_pay7 (F := Ideal) x0 ks) (ix3 (0 : Fin 1) v q) = k0_pay4 (F := Ideal) x0 ks (ix2 q v) := by
  unfold k0_pay1 k0_pay7
  refine (shapeCast_ab_1ab_apply _ _ (0 : Fin 1) v q).trans ?_
  exact transpose_ix2_apply (k0_pay4 (F := Ideal) x0 ks) _ v q

end Cert.Attn.Pay

end
-- ==== Proof.Blocks.lean ====
/-
  From the kernel's blocks to its two result arrays.

  The grid runs over 32 batch entries × 2 query tiles, the tile fastest. Point t works on entry t / 2 and on rows
  [512·(t mod 2), 512·(t mod 2) + 512) of that entry's queries; it loads the entry's whole value block, the whole
  weight and the whole bias. The keys of an entry are projected at its first tile and kept in a scratch buffer for
  its second, so after EVERY point the scratch buffer holds the keys of the point's entry. From that, what each
  point writes back is a block of one whole-array function of the arguments: rows of the context beside the same
  rows of the query (first result), and a band of lanes of the transposed alignment (second result). Every index of
  either result lies in exactly the block of the point (entry, tile), so the arrays after the run are those functions.
-/
import proofs.«152004_j23467701305764_2_alg».proof.Proof.Gen.KernelIdeal.Value
import proofs.«152004_j23467701305764_2_alg».proof.Proof.Pieces
import proofs.«152004_j23467701305764_2_alg».proof.Proof.Payload
import proofs.«152004_j23467701305764_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Attn.Blocks

open Cert.KernelIdeal Cert.KernelIdeal.Gen Cert.Attn Cert.Attn.Pieces

variable (m : (ℓ : Loc nD τ sig) → Buf (Elt Ideal) ℓ) (ρ : Dev nD → PrngReg)

theorem N64 : cfg0.N = 64 := N_0

/-- The batch entry a grid point works on, and its query tile: the grid runs over 32 entries × 2 tiles, tile fastest. -/
theorem pt_lt (t : Fin cfg0.N) : t.val / 2 < 32 := by have := t.isLt; have := N64; omega
abbrev bOf (t : Fin cfg0.N) : Fin 32 := ⟨t.val / 2, pt_lt t⟩
theorem row_lt (t : Fin cfg0.N) (q : Fin 512) : t.val % 2 * 512 + q.val < 1024 := by have := q.isLt; omega
/-- Row `q` of a point's query tile, as a row of the whole query array. -/
abbrev rowOf (t : Fin cfg0.N) (q : Fin 512) : Fin 1024 := ⟨t.val % 2 * 512 + q.val, row_lt t q⟩

/-- The block index maps, decided once over the 64 grid points. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 2 ∧ win0_4.index t (1 : Fin 3) = t.val % 2 ∧ win0_4.index t (2 : Fin 3) = 0
    ∧ win0_5.index t (0 : Fin 3) = t.val / 2 ∧ win0_5.index t (1 : Fin 3) = 0 ∧ win0_5.index t (2 : Fin 3) = t.val % 2 :=
  (by decide +kernel : ∀ t : Fin grid0.N, _)

/-- The query tile a point loads is rows [512·tile, 512·tile + 512) of its batch entry of the query array. -/
theorem iblk0_apply (c : Dev nD) (t : Fin cfg0.N) (q d : Fin 512) :
    iblk m c 0 t (ix3 (0 : Fin 1) q d) = V m c main_arg0 (ix3 (bOf t) (rowOf t q) d) := by
  obtain ⟨e0, e1, e2, -⟩ := idx_facts t
  show V m c main_arg0 (((cfg0.win 0).blk t).view.emb (ix3 (0 : Fin 1) q d)) = _
  refine congrArg (V m c main_arg0) (funext fun a => Fin.ext ?_)
  match a with
  | ⟨0, _⟩ => show win0_0.index t (0 : Fin 3) * 1 + 1 * 0 = t.val / 2; omega
  | ⟨1, _⟩ => show win0_0.index t (1 : Fin 3) * 512 + 1 * q.val = t.val % 2 * 512 + q.val; omega
  | ⟨2, _⟩ => show win0_0.index t (2 : Fin 3) * 512 + 1 * d.val = d.val; omega

/-- The value block a point loads is its whole batch entry of the value array. -/
theorem iblk1_apply (c : Dev nD) (t : Fin cfg0.N) (v : Fin 1024) (d : Fin 512) :
    iblk m c 1 t (ix3 (0 : Fin 1) v d) = V m c main_arg1 (ix3 (bOf t) v d) := by
  obtain ⟨-, -, -, e0, e1, e2, -⟩ := idx_facts t
  show V m c main_arg1 (((cfg0.win 1).blk t).view.emb (ix3 (0 : Fin 1) v d)) = _
  refine congrArg (V m c main_arg1) (funext fun a => Fin.ext ?_)
  match a with
  | ⟨0, _⟩ => show win0_1.index t (0 : Fin 3) * 1 + 1 * 0 = t.val / 2; omega
  | ⟨1, _⟩ => show win0_1.index t (1 : Fin 3) * 1024 + 1 * v.val = v.val; omega
  | ⟨2, _⟩ => show win0_1.index t (2 : Fin 3) * 512 + 1 * d.val = d.val; omega

/-- The weight block is the whole weight array. -/
theorem iblk2_apply (c : Dev nD) (t : Fin cfg0.N) (e d : Fin 512) :
    iblk m c 2 t (ix2 e d) = V m c main_arg2 (ix2 e d) := by
  obtain ⟨-, -, -, -, -, -, e0, e1, -⟩ := idx_facts t
  show V m c main_arg2 (((cfg0.win 2).blk t).view.emb (ix2 e d)) = _
  refine congrArg (V m c main_arg2) (funext fun a => Fin.ext ?_)
  match a with
  | ⟨0, _⟩ => show win0_2.index t (0 : Fin 2) * 512 + 1 * e.val = e.val; omega
  | ⟨1, _⟩ => show win0_2.index t (1 : Fin 2) * 512 + 1 * d.val = d.val; omega

/-- The bias block is the whole bias array. -/
theorem iblk3_apply (c : Dev nD) (t : Fin cfg0.N) (e : Fin 512) :
    iblk m c 3 t (ix1 e) = V m c main_arg3 (ix1 e) := by
  obtain ⟨-, -, -, -, -, -, -, -, e0, -⟩ := idx_facts t
  show V m c main_arg3 (((cfg0.win 3).blk t).view.emb (ix1 e)) = _
  refine congrArg (V m c main_arg3) (funext fun a => Fin.ext ?_)
  match a with
  | ⟨0, _⟩ => show win0_3.index t (0 : Fin 1) * 512 + 1 * e.val = e.val; omega

/-- The argument arrays as the region finds them, named. -/
abbrev Qa (c : Dev nD) := V m c main_arg0
abbrev Va (c : Dev nD) := V m c main_arg1
abbrev Wa (c : Dev nD) := V m c main_arg2
abbrev Ba (c : Dev nD) := V m c main_arg3

/-- The blocks a point loads, at their literal types. -/
abbrev qBlk (c : Dev nD) (t : Fin cfg0.N) : Vec Ideal S1x512x512 .f32 := iblk m c 0 t
abbrev vBlk (c : Dev nD) (t : Fin cfg0.N) : Vec Ideal S1x1024x512 .f32 := iblk m c 1 t
abbrev wBlk (c : Dev nD) (t : Fin cfg0.N) : Vec Ideal S512x512 .f32 := iblk m c 2 t
abbrev bBlk (c : Dev nD) (t : Fin cfg0.N) : Vec Ideal S512 .f32 := iblk m c 3 t

/-- The projected keys of batch entry `b`, as the contents of the scratch buffer. -/
def keysBlk (c : Dev nD) (b : Fin 32) : Vec Ideal S1024x512 .bf16 :=
  fun j => keys (Va m c) (Wa m c) (Ba m c) b (j 0) (j 1)

theorem keysBlk_apply (c : Dev nD) (b : Fin 32) (v : Fin 1024) (e : Fin 512) :
    keysBlk m c b (ix2 v e) = keys (Va m c) (Wa m c) (Ba m c) b v e := rfl

/-- What the body projects from the blocks a point loads is the keys of the point's batch entry. -/
theorem keys_of_blocks (c : Dev nD) (t : Fin cfg0.N) :
    k0_pay3 (F := Ideal) (vBlk m c t) (wBlk m c t) (bBlk m c t) = keysBlk m c (bOf t) := by
  funext j
  obtain ⟨v, e, rfl⟩ : ∃ (v : Fin 1024) (e : Fin 512), j = ix2 v e := ⟨j 0, j 1, eq_ix2 j⟩
  refine (Cert.Attn.Pay.pay3_apply (vBlk m c t) (wBlk m c t) (bBlk m c t) v e).trans ?_
  refine Eq.trans ?_ (keysBlk_apply m c (bOf t) v e).symm
  unfold keys
  refine congrArg₂ (· + ·) (Finset.sum_congr rfl fun d _ => ?_) (iblk3_apply m c t e)
  exact congrArg₂ (· * ·) (iblk1_apply m c t v d) (iblk2_apply m c t e d)

/-- After the first tile of a batch entry the scratch buffer holds the entry's keys. -/
theorem scratch_even (c : Dev nD) (t : Fin cfg0.N) (h0 : t.val % 2 = 0) :
    (outsAt0 m c t.val t.isLt).2.2 = keysBlk m c (bOf t) := by
  have hS := scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (qBlk m c t) (vBlk m c t) (wBlk m c t) (bBlk m c t)
  rw [outsAt0_A m c t h0]
  dsimp only
  exact hS.trans (keys_of_blocks m c t)

/-- AFTER EVERY POINT the scratch buffer holds the keys of the point's batch entry: the first tile of an entry
    projects them, the second finds what the first left — and both tiles belong to the same entry. -/
theorem scratch_eq (c : Dev nD) (t : Fin cfg0.N) :
    (outsAt0 m c t.val t.isLt).2.2 = keysBlk m c (bOf t) := by
  by_cases h0 : t.val % 2 = 0
  · exact scratch_even m c t h0
  · have hlt : t.val - 1 < cfg0.N := Nat.lt_of_le_of_lt (Nat.sub_le _ _) t.isLt
    have h1 : (⟨t.val - 1, hlt⟩ : Fin cfg0.N).val % 2 = 0 := by show (t.val - 1) % 2 = 0; omega
    have hb : bOf (⟨t.val - 1, hlt⟩ : Fin cfg0.N) = bOf t := Fin.ext (by show (t.val - 1) / 2 = t.val / 2; omega)
    refine (congrArg (fun p => p.2.2) (outsAt0_B m c t h0)).trans ?_
    exact (scratch_even m c ⟨t.val - 1, hlt⟩ h1).trans (congrArg (keysBlk m c) hb)

/-- The scores of row `q` of a point's query tile against the keys of its batch entry are a row of the scores. -/
theorem scores_of_blocks (c : Dev nD) (t : Fin cfg0.N) (q : Fin 512) (u : Fin 1024) :
    (∑ d : Fin 512, qBlk m c t (ix3 (0 : Fin 1) q d) * keysBlk m c (bOf t) (ix2 u d))
      = scores (Qa m c) (Va m c) (Wa m c) (Ba m c) (bOf t) (rowOf t q) u := by
  unfold scores
  refine Finset.sum_congr rfl fun d _ => ?_
  exact congrArg₂ (· * ·) (iblk0_apply m c t q d) (keysBlk_apply m c (bOf t) u d)

/-- So the body's alignment, at row `q` of the tile, is that row of the alignment. -/
theorem align_of_blocks (c : Dev nD) (t : Fin cfg0.N) (q : Fin 512) (v : Fin 1024) :
    k0_pay4 (F := Ideal) (qBlk m c t) (keysBlk m c (bOf t)) (ix2 q v)
      = align (Qa m c) (Va m c) (Wa m c) (Ba m c) (bOf t) (rowOf t q) v := by
  refine (Cert.Attn.Pay.pay4_apply (qBlk m c t) (keysBlk m c (bOf t)) q v).trans ?_
  exact softmaxRow_congr (fun u => scores_of_blocks m c t q u) v

/-- Before the second tile of a batch entry the scratch buffer holds what the first tile left: the entry's keys. -/
theorem prev_scratch (c : Dev nD) (t : Fin cfg0.N) (h0 : ¬t.val % 2 = 0) :
    (outsAt0 m c (t.val - 1) (Nat.lt_of_le_of_lt (Nat.sub_le _ _) t.isLt)).2.2 = keysBlk m c (bOf t) := by
  have hlt : t.val - 1 < cfg0.N := Nat.lt_of_le_of_lt (Nat.sub_le _ _) t.isLt
  have hb : bOf (⟨t.val - 1, hlt⟩ : Fin cfg0.N) = bOf t := Fin.ext (by show (t.val - 1) / 2 = t.val / 2; omega)
  exact (scratch_eq m c ⟨t.val - 1, hlt⟩).trans (congrArg (keysBlk m c) hb)

/-! ## The specification at the coordinates a block covers -/

theorem outCtx_lo (Q V : (⟨3, ![32, 1024, 512]⟩ : Shape).Idx → EReal) (W : (⟨2, ![512, 512]⟩ : Shape).Idx → EReal)
    (B : (⟨1, ![512]⟩ : Shape).Idx → EReal) (b : Fin 32) (q : Fin 1024) (l : Fin 512) :
    outCtx Q V W B (ix3 b q (⟨l.val, by have := l.isLt; omega⟩ : Fin 1024)) = context Q V W B b q l := by
  unfold outCtx
  rw [dif_pos (show ((ix3 b q (⟨l.val, by have := l.isLt; omega⟩ : Fin 1024) : (⟨3, ![32, 1024, 1024]⟩ : Shape).Idx) 2).val < 512 from l.isLt)]

theorem outCtx_hi (Q V : (⟨3, ![32, 1024, 512]⟩ : Shape).Idx → EReal) (W : (⟨2, ![512, 512]⟩ : Shape).Idx → EReal)
    (B : (⟨1, ![512]⟩ : Shape).Idx → EReal) (b : Fin 32) (q : Fin 1024) (l : Fin 512) :
    outCtx Q V W B (ix3 b q (⟨l.val + 512, by have := l.isLt; omega⟩ : Fin 1024)) = Q (ix3 b q l) := by
  unfold outCtx
  rw [dif_neg (show ¬((ix3 b q (⟨l.val + 512, by have := l.isLt; omega⟩ : Fin 1024) : (⟨3, ![32, 1024, 1024]⟩ : Shape).Idx) 2).val < 512 from by
    show ¬(l.val + 512 < 512); omega)]
  refine congrArg Q (funext fun a => Fin.ext ?_)
  match a with
  | ⟨0, _⟩ => rfl
  | ⟨1, _⟩ => rfl
  | ⟨2, _⟩ => show l.val + 512 - 512 = l.val; omega

/-! ## The second result: the transposed alignment -/

/-- After any point the second output buffer holds the transposed alignment of the point's query tile against the
    keys of its batch entry. -/
theorem out5_eq (c : Dev nD) (t : Fin cfg0.N) :
    (outsAt0 m c t.val t.isLt).2.1 = k0_pay1 (F := Ideal) (k0_pay7 (F := Ideal) (qBlk m c t) (keysBlk m c (bOf t))) := by
  by_cases h0 : t.val % 2 = 0
  · have h5 := out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (qBlk m c t) (vBlk m c t) (wBlk m c t) (bBlk m c t)
    rw [outsAt0_A m c t h0]
    dsimp only
    exact h5.trans (congrArg (fun ks => k0_pay1 (F := Ideal) (k0_pay7 (F := Ideal) (qBlk m c t) ks)) (keys_of_blocks m c t))
  · have h5 := out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (qBlk m c t) (vBlk m c t) (wBlk m c t) (bBlk m c t)
      ((outsAt0 m c (t.val - 1) (Nat.lt_of_le_of_lt (Nat.sub_le _ _) t.isLt)).2.2)
    rw [outsAt0_B m c t h0]
    dsimp only
    exact h5.trans (congrArg (fun ks => k0_pay1 (F := Ideal) (k0_pay7 (F := Ideal) (qBlk m c t) ks)) (prev_scratch m c t h0))

/-- Row `v`, lane `q` of a point's block of the second result sits at (entry, v, 512·tile + q) of the array. -/
theorem emb5 (t : Fin cfg0.N) (v : Fin 1024) (q : Fin 512) :
    ((cfg0.win 5).blk t).view.emb (ix3 (0 : Fin 1) v q) = (ix3 (bOf t) v (rowOf t q) : S32x1024x1024.Idx) := by
  obtain ⟨-, -, -, -, -, -, -, -, -, -, -, -, e0, e1, e2⟩ := idx_facts t
  refine funext fun a => Fin.ext ?_
  match a with
  | ⟨0, _⟩ => show win0_5.index t (0 : Fin 3) * 1 + 1 * 0 = t.val / 2; omega
  | ⟨1, _⟩ => show win0_5.index t (1 : Fin 3) * 1024 + 1 * v.val = v.val; omega
  | ⟨2, _⟩ => show win0_5.index t (2 : Fin 3) * 512 + 1 * q.val = t.val % 2 * 512 + q.val; omega

/-- Entry by entry, that buffer is the point's block of the transposed alignment. -/
theorem flushed5_apply (c : Dev nD) (t : Fin cfg0.N) (v : Fin 1024) (q : Fin 512) :
    k0_pay1 (F := Ideal) (k0_pay7 (F := Ideal) (qBlk m c t) (keysBlk m c (bOf t))) (ix3 (0 : Fin 1) v q)
      = outAlignT (Qa m c) (Va m c) (Wa m c) (Ba m c) (((cfg0.win 5).blk t).view.emb (ix3 (0 : Fin 1) v q)) := by
  rw [emb5 t v q]
  refine (Cert.Attn.Pay.pay17_apply (qBlk m c t) (keysBlk m c (bOf t)) v q).trans ?_
  exact align_of_blocks m c t q v

/-! ## The first result: the context beside the query -/

/-- After any point the first output buffer holds, in its low lanes, the context of the point's query tile. -/
theorem out4_lo_eq (c : Dev nD) (t : Fin cfg0.N) (r l : Fin 512) :
    (outsAt0 m c t.val t.isLt).1 (lo r l)
      = k0_pay5 (F := Ideal) (vBlk m c t) (qBlk m c t) (keysBlk m c (bOf t)) (ix3 (0 : Fin 1) r l) := by
  by_cases h0 : t.val % 2 = 0
  · have h4 := out4_A_lo (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (qBlk m c t) (vBlk m c t) (wBlk m c t) (bBlk m c t) r l
    rw [outsAt0_A m c t h0]
    dsimp only
    exact h4.trans (congrArg (fun ks => k0_pay5 (F := Ideal) (vBlk m c t) (qBlk m c t) ks (ix3 (0 : Fin 1) r l)) (keys_of_blocks m c t))
  · have h4 := out4_B_lo (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (qBlk m c t) (vBlk m c t) (wBlk m c t) (bBlk m c t)
      ((outsAt0 m c (t.val - 1) (Nat.lt_of_le_of_lt (Nat.sub_le _ _) t.isLt)).2.2) r l
    rw [outsAt0_B m c t h0]
    dsimp only
    exact h4.trans (congrArg (fun ks => k0_pay5 (F := Ideal) (vBlk m c t) (qBlk m c t) ks (ix3 (0 : Fin 1) r l)) (prev_scratch m c t h0))

/-- … and, in its high lanes, the query tile itself. -/
theorem out4_hi_eq (c : Dev nD) (t : Fin cfg0.N) (r l : Fin 512) :
    (outsAt0 m c t.val t.isLt).1 (hi r l) = k0_pay6 (F := Ideal) (qBlk m c t) (ix3 (0 : Fin 1) r l) := by
  by_cases h0 : t.val % 2 = 0
  · have h4 := out4_A_hi (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (qBlk m c t) (vBlk m c t) (wBlk m c t) (bBlk m c t) r l
    rw [outsAt0_A m c t h0]
    dsimp only
    exact h4
  · have h4 := out4_B_hi (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (qBlk m c t) (vBlk m c t) (wBlk m c t) (bBlk m c t)
      ((outsAt0 m c (t.val - 1) (Nat.lt_of_le_of_lt (Nat.sub_le _ _) t.isLt)).2.2) r l
    rw [outsAt0_B m c t h0]
    dsimp only
    exact h4

/-- Row `r`, lane `l` of a point's block of the first result sits at (entry, 512·tile + r, l) of the array. -/
theorem emb4 (t : Fin cfg0.N) (r : Fin 512) (l : Fin 1024) :
    ((cfg0.win 4).blk t).view.emb (ix3 (0 : Fin 1) r l) = (ix3 (bOf t) (rowOf t r) l : S32x1024x1024.Idx) := by
  obtain ⟨-, -, -, -, -, -, -, -, -, e0, e1, e2, -⟩ := idx_facts t
  refine funext fun a => Fin.ext ?_
  match a with
  | ⟨0, _⟩ => show win0_4.index t (0 : Fin 3) * 1 + 1 * 0 = t.val / 2; omega
  | ⟨1, _⟩ => show win0_4.index t (1 : Fin 3) * 512 + 1 * r.val = t.val % 2 * 512 + r.val; omega
  | ⟨2, _⟩ => show win0_4.index t (2 : Fin 3) * 1024 + 1 * l.val = l.val; omega

theorem flushed4_lo (c : Dev nD) (t : Fin cfg0.N) (r l : Fin 512) :
    (outsAt0 m c t.val t.isLt).1 (lo r l) = outCtx (Qa m c) (Va m c) (Wa m c) (Ba m c) (((cfg0.win 4).blk t).view.emb (lo r l)) := by
  rw [out4_lo_eq m c t r l]
  refine Eq.trans ?_ (congrArg (outCtx (Qa m c) (Va m c) (Wa m c) (Ba m c)) (emb4 t r _).symm)
  refine Eq.trans ?_ (outCtx_lo (Qa m c) (Va m c) (Wa m c) (Ba m c) (bOf t) (rowOf t r) l).symm
  refine (Cert.Attn.Pay.pay5_apply (vBlk m c t) (qBlk m c t) (keysBlk m c (bOf t)) r l).trans ?_
  unfold context
  refine Finset.sum_congr rfl fun v _ => ?_
  exact congrArg₂ (· * ·) (align_of_blocks m c t r v) (iblk1_apply m c t v l)

theorem flushed4_hi (c : Dev nD) (t : Fin cfg0.N) (r l : Fin 512) :
    (outsAt0 m c t.val t.isLt).1 (hi r l) = outCtx (Qa m c) (Va m c) (Wa m c) (Ba m c) (((cfg0.win 4).blk t).view.emb (hi r l)) := by
  rw [out4_hi_eq m c t r l]
  refine Eq.trans ?_ (congrArg (outCtx (Qa m c) (Va m c) (Wa m c) (Ba m c)) (emb4 t r _).symm)
  refine Eq.trans ?_ (outCtx_hi (Qa m c) (Va m c) (Wa m c) (Ba m c) (bOf t) (rowOf t r) l).symm
  exact (Cert.Attn.Pay.pay6_apply (qBlk m c t) r l).trans (iblk0_apply m c t r l)

/-! ## From blocks to the arrays -/

/-- WHAT A POINT WRITES BACK to the second result is its block of the transposed alignment. -/
theorem flushed5_eq (c : Dev nD) (t : Fin cfg0.N) :
    (dats m 0 c).flushed 5 t = ((cfg0.win 5).blk t).view.read (Elt Ideal) (outAlignT (Qa m c) (Va m c) (Wa m c) (Ba m c)) := by
  rw [Cert.KernelIdeal.Value.flushed5 m c t, out5_eq m c t]
  funext j
  have h0 : (j 0).val < 1 := (j 0).isLt
  have hj : j = ix3 (0 : Fin 1) (j 1) (j 2) := funext fun a => by
    match a with
    | ⟨0, _⟩ => exact Fin.ext (by show (j 0).val = 0; omega)
    | ⟨1, _⟩ => rfl
    | ⟨2, _⟩ => rfl
  rw [hj]
  exact flushed5_apply m c t (j 1) (j 2)

/-- WHAT A POINT WRITES BACK to the first result is its block of the context beside the query. -/
theorem flushed4_eq (c : Dev nD) (t : Fin cfg0.N) :
    (dats m 0 c).flushed 4 t = ((cfg0.win 4).blk t).view.read (Elt Ideal) (outCtx (Qa m c) (Va m c) (Wa m c) (Ba m c)) := by
  rw [Cert.KernelIdeal.Value.flushed4 m c t]
  funext j
  have h0 : (j 0).val < 1 := (j 0).isLt
  have h1 : (j 1).val < 512 := (j 1).isLt
  have h2 : (j 2).val < 1024 := (j 2).isLt
  by_cases hl : (j 2).val < 512
  · have hj : j = lo ⟨(j 1).val, h1⟩ ⟨(j 2).val, hl⟩ := funext fun a => by
      match a with
      | ⟨0, _⟩ => exact Fin.ext (by show (j 0).val = 0; omega)
      | ⟨1, _⟩ => rfl
      | ⟨2, _⟩ => rfl
    rw [hj]
    exact flushed4_lo m c t _ _
  · have hj : j = hi ⟨(j 1).val, h1⟩ ⟨(j 2).val - 512, by omega⟩ := funext fun a => by
      match a with
      | ⟨0, _⟩ => exact Fin.ext (by show (j 0).val = 0; omega)
      | ⟨1, _⟩ => rfl
      | ⟨2, _⟩ => exact Fin.ext (by show (j 2).val = (j 2).val - 512 + 512; omega)
    rw [hj]
    exact flushed4_hi m c t _ _

/-- An index of the first result lies in a point's block iff each coordinate is in the block's range. -/
theorem mem_blk4 (t : Fin cfg0.N) (i : S32x1024x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v0_0).slice (win0_4.rect t)).set ↔ _
  rw [View.set_slice_whole, Rect.mem_set_unit]
  exact Iff.rfl

theorem mem_blk5 (t : Fin cfg0.N) (i : S32x1024x1024.Idx) :
    i ∈ ((cfg0.win 5).blk t).view.set ↔ ∀ a : Fin 3, win0_5.index t a * S1x1024x512.size a ≤ (i a).val ∧ (i a).val < win0_5.index t a * S1x1024x512.size a + S1x1024x512.size a := by
  show i ∈ ((View.whole main_v0_1).slice (win0_5.rect t)).set ↔ _
  rw [View.set_slice_whole, Rect.mem_set_unit]
  exact Iff.rfl

/-- Every index of the first result is in the block of the point (entry, tile of its row). -/
theorem cover4 (i : S32x1024x1024.Idx) : ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 1024 := (i 2).isLt
  have hN := N64
  refine ⟨⟨(i 0).val * 2 + (i 1).val / 512, by omega⟩, flush0_4 _, ?_⟩
  rw [mem_blk4]
  obtain ⟨-, -, -, -, -, -, -, -, -, e0, e1, e2, -⟩ := idx_facts ⟨(i 0).val * 2 + (i 1).val / 512, by omega⟩
  have f0 : ((i 0).val * 2 + (i 1).val / 512) / 2 = (i 0).val := by omega
  have f1 : ((i 0).val * 2 + (i 1).val / 512) % 2 = (i 1).val / 512 := by omega
  rw [show ((⟨(i 0).val * 2 + (i 1).val / 512, by omega⟩ : Fin cfg0.N).val) = (i 0).val * 2 + (i 1).val / 512 from rfl] at e0 e1
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 512 ≤ (i 1).val ∧ (i 1).val < win0_4.index _ (1 : Fin 3) * 512 + 512; omega
  | ⟨2, _⟩ => show win0_4.index _ (2 : Fin 3) * 1024 ≤ (i 2).val ∧ (i 2).val < win0_4.index _ (2 : Fin 3) * 1024 + 1024; omega

/-- Every index of the second result is in the block of the point (entry, tile of its lane). -/
theorem cover5 (i : S32x1024x1024.Idx) : ∃ t : Fin cfg0.N, (cfg0.win 5).flush t = true ∧ i ∈ ((cfg0.win 5).blk t).view.set := by
  have hi0 : (i 0).val < 32 := (i 0).isLt
  have hi1 : (i 1).val < 1024 := (i 1).isLt
  have hi2 : (i 2).val < 1024 := (i 2).isLt
  have hN := N64
  refine ⟨⟨(i 0).val * 2 + (i 2).val / 512, by omega⟩, flush0_5 _, ?_⟩
  rw [mem_blk5]
  obtain ⟨-, -, -, -, -, -, -, -, -, -, -, -, e0, e1, e2⟩ := idx_facts ⟨(i 0).val * 2 + (i 2).val / 512, by omega⟩
  have f0 : ((i 0).val * 2 + (i 2).val / 512) / 2 = (i 0).val := by omega
  have f1 : ((i 0).val * 2 + (i 2).val / 512) % 2 = (i 2).val / 512 := by omega
  rw [show ((⟨(i 0).val * 2 + (i 2).val / 512, by omega⟩ : Fin cfg0.N).val) = (i 0).val * 2 + (i 2).val / 512 from rfl] at e0 e2
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 1024 ≤ (i 1).val ∧ (i 1).val < win0_5.index _ (1 : Fin 3) * 1024 + 1024; omega
  | ⟨2, _⟩ => show win0_5.index _ (2 : Fin 3) * 512 ≤ (i 2).val ∧ (i 2).val < win0_5.index _ (2 : Fin 3) * 512 + 512; omega

/-- THE FIRST RESULT after the run: the context beside the query, of the argument arrays. -/
theorem final4 (c : Dev nD) : (dats m 0 c).arrAt 4 cfg0.N = outCtx (Qa m c) (Va m c) (Wa m c) (Ba m c) :=
  (dats m 0 c).arrAt_eq_of_cover 4 (outCtx (Qa m c) (Va m c) (Wa m c) (Ba m c)) (fun t _ => flushed4_eq m c t) cover4

/-- THE SECOND RESULT after the run: the transposed alignment, of the argument arrays. -/
theorem final5 (c : Dev nD) : (dats m 0 c).arrAt 5 cfg0.N = outAlignT (Qa m c) (Va m c) (Wa m c) (Ba m c) :=
  (dats m 0 c).arrAt_eq_of_cover 5 (outAlignT (Qa m c) (Va m c) (Wa m c) (Ba m c)) (fun t _ => flushed5_eq m c t) cover5

/-- The kernel's run, read: both results at the specification of the arguments, the arguments unchanged. -/
theorem run : θ_run defs (onTc (τ := τ) (main (F := Ideal))) ⟨m, fun _ => 0, ρ⟩ fun r => ∀ c : Dev nD,
      r.2.mem ((c : Thread nD τ).loc main_v0_0) = outCtx (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = outAlignT (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Attn.Blocks
end
-- ==== Proof.RefSpec.lean ====
/-
  The reference program read one value at a time, at explicit coordinates, and identified with the attention map
  of the specification: projected keys, scores, the row maximum, the exponentials and their sum, the alignment,
  the context, and the two results (context joined with the query along the last axis; the alignment transposed).
-/
import proofs.«152004_j23467701305764_2_alg».proof.Proof.Gen.ReferenceIdeal.Read
import proofs.«152004_j23467701305764_2_alg».proof.Proof.Spec
import Idealize.ShloMosaic.Lib.ValueIdx
import Idealize.ShloMosaic.PureOps.Ideal.Laws
import Idealize.ShloMosaic.Lib.Pipeline.Value

noncomputable section

namespace Cert.Attn.Ref

open Idealize.ShloMosaic Idealize.ShloMosaic.ValueIdx
open Cert.ReferenceIdeal Cert.ReferenceIdeal.Read

variable (x0 x1 : S32x1024x512.Idx → EReal) (x2 : S512x512.Idx → EReal) (x3 : S512.Idx → EReal)

/-- The projected keys: value[b,v,·] against row e of the weight, plus bias[e]. -/
theorem v3_apply (b : Fin 32) (v : Fin 1024) (e : Fin 512) :
    val_main_v3 (F := Ideal) x1 x2 x3 (ix3 b v e) = Cert.Attn.keys x1 x2 x3 b v e := by
  rw [val_main_v3_apply, val_main_v0_apply, val_main_v2_apply, val_main_v1_apply, Ideal.addf_def]
  unfold Cert.Attn.keys
  refine congrArg₂ (· + ·) ?_ ?_
  · refine Finset.sum_congr rfl fun d _ => ?_
    refine congrArg₂ (· * ·) ?_ ?_
    · exact congrArg x1 (funext fun a => Fin.ext (by match a with | ⟨0, _⟩ => rfl | ⟨1, _⟩ => rfl | ⟨2, _⟩ => rfl))
    · exact congrArg x2 (funext fun a => Fin.ext (by match a with | ⟨0, _⟩ => rfl | ⟨1, _⟩ => rfl))
  · exact congrArg x3 (funext fun a => Fin.ext (by match a with | ⟨0, _⟩ => rfl))

/-- The scores: query[b,q,·] against keys[b,v,·]. -/
theorem v4_apply (b : Fin 32) (q v : Fin 1024) :
    val_main_v4 (F := Ideal) x0 x1 x2 x3 (ix3 b q v) = Cert.Attn.scores x0 x1 x2 x3 b q v := by
  rw [val_main_v4_apply]
  unfold Cert.Attn.scores
  refine Finset.sum_congr rfl fun d _ => ?_
  refine congrArg₂ (· * ·) ?_ ?_
  · exact congrArg x0 (funext fun a => Fin.ext (by match a with | ⟨0, _⟩ => rfl | ⟨1, _⟩ => rfl | ⟨2, _⟩ => rfl))
  · have e : ridx_main_v4 (ix3 b q v) d = ix3 b v d :=
      funext fun a => Fin.ext (by match a with | ⟨0, _⟩ => rfl | ⟨1, _⟩ => rfl | ⟨2, _⟩ => rfl)
    exact (congrArg (val_main_v3 (F := Ideal) x1 x2 x3) e).trans (v3_apply x1 x2 x3 b v d)

/-- The reduced index (b, q) with coordinate k put back on the last axis is (b, q, k). -/
theorem lift_ix2 (h : S32x1024x1024.Reduces [2] S32x1024) (b : Fin 32) (q : Fin 1024)
    (k : Fin (S32x1024x1024.size 2)) : h.lift (ix2 b q) k = ix3 b q ⟨k.val, k.isLt⟩ := by
  funext c; apply Fin.ext
  fin_cases c <;> rfl

/-- A maximum-reduce over the last axis, at (b, q): the fold of max from the seed over the row's entries. -/
theorem reduceMax_apply (x : S32x1024x1024.Idx → EReal) (init : S_.Idx → EReal)
    (h' : S32x1024x1024.ReducesTo [2] S32x1024) (hu : 0 < S_.numel) (b : Fin 32) (q : Fin 1024) :
    Host.reduce (FloatOps.maximumf (F := Ideal) (φ := .f32)) x init h' hu (ix2 b q)
      = (Finset.univ : Finset (Fin 1024)).fold max (init (Shape.Idx.first hu)) (fun k => x (ix3 b q k)) := by
  have h : S32x1024x1024.Reduces [2] S32x1024 := by decide
  refine (Host.reduce_eq_fold_single (FloatOps.maximumf (F := Ideal) (φ := .f32)) x init h' h hu (ix2 b q)).trans ?_
  have hf : (x ∘ h.lift (ix2 b q)) = fun k : Fin 1024 => x (ix3 b q k) :=
    funext fun k => congrArg x (lift_ix2 h b q k)
  exact congrArg (fun f => Finset.fold max (init (Shape.Idx.first hu)) f (Finset.univ : Finset (Fin 1024))) hf

/-- The row maximum of the scores. -/
theorem v5_apply (b : Fin 32) (q : Fin 1024) :
    val_main_v5 (F := Ideal) x0 x1 x2 x3 (ix2 b q) = Cert.Attn.rowMax (Cert.Attn.scores x0 x1 x2 x3 b q) := by
  unfold val_main_v5
  refine (reduceMax_apply _ _ _ _ b q).trans ?_
  unfold Cert.Attn.rowMax
  have hf : (fun k : Fin 1024 => val_main_v4 (F := Ideal) x0 x1 x2 x3 (ix3 b q k)) = Cert.Attn.scores x0 x1 x2 x3 b q :=
    funext fun k => v4_apply x0 x1 x2 x3 b q k
  exact congrArg (fun f => Finset.fold max Cert.Attn.negInf f (Finset.univ : Finset (Fin 1024))) hf

/-- Taking the maximum with −∞ once more changes nothing. -/
theorem v7_apply (b : Fin 32) (q : Fin 1024) :
    val_main_v7 (F := Ideal) x0 x1 x2 x3 (ix2 b q) = Cert.Attn.rowMax (Cert.Attn.scores x0 x1 x2 x3 b q) := by
  rw [val_main_v7_apply, val_main_v6_apply, val_main_cst_0_apply, Ideal.maximumf_def, v5_apply]
  exact Cert.Attn.max_negInf _

/-- The exponential of a score less its row's maximum. -/
theorem v11_apply (b : Fin 32) (q v : Fin 1024) :
    val_main_v11 (F := Ideal) x0 x1 x2 x3 (ix3 b q v)
      = Ideal.exp (Cert.Attn.scores x0 x1 x2 x3 b q v - Cert.Attn.rowMax (Cert.Attn.scores x0 x1 x2 x3 b q)) := by
  rw [val_main_v11_apply, Ideal.hostUnary_exp_def, val_main_v10_apply, Ideal.subf_def, val_main_v9_apply,
    val_main_v8_apply, v4_apply]
  have e : idx_main_v8 (idx_main_v9 (ix3 b q v)) = ix2 b q :=
    funext fun a => Fin.ext (by match a with | ⟨0, _⟩ => rfl | ⟨1, _⟩ => rfl)
  rw [e, v7_apply]

/-- The sum of a row's exponentials. -/
theorem v12_apply (b : Fin 32) (q : Fin 1024) :
    val_main_v12 (F := Ideal) x0 x1 x2 x3 (ix2 b q)
      = ∑ u : Fin 1024, Ideal.exp (Cert.Attn.scores x0 x1 x2 x3 b q u - Cert.Attn.rowMax (Cert.Attn.scores x0 x1 x2 x3 b q)) := by
  rw [val_main_v12_apply, val_main_cst_1_apply]
  show Ideal.ofBits .f32 0x00000000#32 + _ = _
  rw [Ideal.ofBits_zero_f32, zero_add]
  refine Finset.sum_congr rfl fun u _ => ?_
  have e : idx_main_v12 (ix2 b q) u = ix3 b q u :=
    funext fun a => Fin.ext (by match a with | ⟨0, _⟩ => rfl | ⟨1, _⟩ => rfl | ⟨2, _⟩ => rfl)
  exact (congrArg (val_main_v11 (F := Ideal) x0 x1 x2 x3) e).trans (v11_apply x0 x1 x2 x3 b q u)

/-- The alignment: each exponential over its row's sum. -/
theorem v15_apply (b : Fin 32) (q v : Fin 1024) :
    val_main_v15 (F := Ideal) x0 x1 x2 x3 (ix3 b q v) = Cert.Attn.align x0 x1 x2 x3 b q v := by
  rw [val_main_v15_apply, Ideal.hostDivf_def, val_main_v14_apply, val_main_v13_apply, v11_apply]
  have e : idx_main_v13 (idx_main_v14 (ix3 b q v)) = ix2 b q :=
    funext fun a => Fin.ext (by match a with | ⟨0, _⟩ => rfl | ⟨1, _⟩ => rfl)
  rw [e, v12_apply]
  rfl

/-- The second result: the alignment with its last two axes swapped. -/
theorem ref_outAlignT :
    val_main_v18 (F := Ideal) x0 x1 x2 x3 = Cert.Attn.outAlignT x0 x1 x2 x3 := by
  funext i
  rw [val_main_v18_apply]
  have e : idx_main_v18 i = ix3 (n0 := 32) (n1 := 1024) (n2 := 1024) (i 0) (i 2) (i 1) :=
    funext fun a => Fin.ext (by match a with | ⟨0, _⟩ => rfl | ⟨1, _⟩ => rfl | ⟨2, _⟩ => rfl)
  exact (congrArg (val_main_v15 (F := Ideal) x0 x1 x2 x3) e).trans (v15_apply x0 x1 x2 x3 (i 0) (i 2) (i 1))

/-- The context: a row of the alignment against a column of value. -/
theorem v16_apply (b : Fin 32) (q : Fin 1024) (d : Fin 512) :
    val_main_v16 (F := Ideal) x0 x1 x2 x3 (ix3 b q d) = Cert.Attn.context x0 x1 x2 x3 b q d := by
  rw [val_main_v16_apply]
  unfold Cert.Attn.context
  refine Finset.sum_congr rfl fun v _ => ?_
  refine congrArg₂ (· * ·) ?_ ?_
  · have e : lidx_main_v16 (ix3 b q d) v = ix3 b q v :=
      funext fun a => Fin.ext (by match a with | ⟨0, _⟩ => rfl | ⟨1, _⟩ => rfl | ⟨2, _⟩ => rfl)
    exact (congrArg (val_main_v15 (F := Ideal) x0 x1 x2 x3) e).trans (v15_apply x0 x1 x2 x3 b q v)
  · exact congrArg x1 (funext fun a => Fin.ext (by match a with | ⟨0, _⟩ => rfl | ⟨1, _⟩ => rfl | ⟨2, _⟩ => rfl))

/-- The first result: the context in lanes below 512, the query row in the lanes from 512 on, 512 less. -/
theorem ref_outCtx :
    val_main_v17 (F := Ideal) x0 x1 x2 x3 = Cert.Attn.outCtx x0 x1 x2 x3 := by
  funext i
  unfold val_main_v17
  show _ = (if h : (i 2).val < 512 then Cert.Attn.context x0 x1 x2 x3 (i 0) (i 1) ⟨(i 2).val, h⟩
    else x0 (ix3 (i 0) (i 1) ⟨(i 2).val - 512, by have h2 : (i 2).val < 1024 := (i 2).isLt; omega⟩))
  by_cases h : (i 2).val < 512
  · rw [dif_pos h]
    refine (concatenate_pair_apply_left (t := S32x1024x1024) (s₁ := S32x1024x512) (s₂ := S32x1024x512) 2
      (val_main_v16 (F := Ideal) x0 x1 x2 x3) x0 _ i rfl (ix3 (n0 := 32) (n1 := 1024) (n2 := 512) (i 0) (i 1) ⟨(i 2).val, h⟩) (fun b => by
      match b with
      | ⟨0, _⟩ => rfl
      | ⟨1, _⟩ => rfl
      | ⟨2, _⟩ => rfl)).trans ?_
    exact v16_apply x0 x1 x2 x3 (i 0) (i 1) ⟨(i 2).val, h⟩
  · rw [dif_neg h]
    have h2 : (i 2).val < 1024 := (i 2).isLt
    exact concatenate_pair_apply_right (t := S32x1024x1024) (s₁ := S32x1024x512) (s₂ := S32x1024x512) 2
      (val_main_v16 (F := Ideal) x0 x1 x2 x3) x0 _ i rfl rfl
      (ix3 (n0 := 32) (n1 := 1024) (n2 := 512) (i 0) (i 1) ⟨(i 2).val - 512, by omega⟩)
      (fun b hb => by
        match b with
        | ⟨0, _⟩ => rfl
        | ⟨1, _⟩ => rfl
        | ⟨2, _⟩ => exact absurd rfl hb)
      (by show (i 2).val - 512 + 512 = (i 2).val; omega)

end Cert.Attn.Ref

end
-- ==== Proof.lean ====
/-
  Luong attention with a projected key, one fused kernel against its jnp reference: the two programs compute the same
  pair of arrays over the extended reals.

  For a batch entry b both sides form  keys = value[b] · weightᵀ + bias,  scores = query[b] · keysᵀ,  the softmax of
  every row of scores (subtract the row's maximum, exponentiate, divide by the row's sum),  context = alignment ·
  value[b];  the first result is context joined with query along the last axis, the second the alignment with its last
  two axes swapped. The kernel works tile by tile — 32 entries × 2 tiles of 512 query rows — keeping an entry's keys in
  a scratch buffer from its first tile to its second, and narrows its matrix operands to bf16, which over the extended
  reals is the identity; the reference works on whole arrays. The specification (Proof/Spec.lean) states the result once,
  index by index. The kernel's arrays after its run are that specification (Proof/Blocks.lean, over the stored values of
  Proof/Pieces.lean read at an index in Proof/Payload.lean); so are the reference's (Proof/RefSpec.lean). The laws that
  join the two sides are: a matrix product accumulated into zero is the plain sum of products; a lane reduction and a
  host reduction over one axis are the same sum, respectively the same fold of max; the maximum with −∞ changes nothing.
  None of them needs the inputs finite, so the precondition is never opened. The three frame claims are the generated
  frames (the reference's is its generated run with the results dropped); the idealization rewrote nothing.
-/
import proofs.«152004_j23467701305764_2_alg».proof.Defs
import proofs.«152004_j23467701305764_2_alg».proof.Proof.Gen.Kernel
import proofs.«152004_j23467701305764_2_alg».proof.Proof.Gen.Kernel.Skeleton
import proofs.«152004_j23467701305764_2_alg».proof.Proof.Gen.Kernel.Launch
import proofs.«152004_j23467701305764_2_alg».proof.Proof.Gen.Kernel.Points
import proofs.«152004_j23467701305764_2_alg».proof.Proof.Gen.Kernel.Frame
import proofs.«152004_j23467701305764_2_alg».proof.Proof.Gen.KernelIdeal
import proofs.«152004_j23467701305764_2_alg».proof.Proof.Gen.KernelIdeal.Skeleton
import proofs.«152004_j23467701305764_2_alg».proof.Proof.Gen.KernelIdeal.Launch
import proofs.«152004_j23467701305764_2_alg».proof.Proof.Gen.KernelIdeal.Points
import proofs.«152004_j23467701305764_2_alg».proof.Proof.Gen.KernelIdeal.Frame
import proofs.«152004_j23467701305764_2_alg».proof.Proof.Gen.ReferenceIdeal
import proofs.«152004_j23467701305764_2_alg».proof.Proof.Gen.Pre_finite_inputs
import proofs.«152004_j23467701305764_2_alg».proof.Proof.Gen.KernelIdeal.Value
import proofs.«152004_j23467701305764_2_alg».proof.Proof.Gen.ReferenceIdeal.Run
import proofs.«152004_j23467701305764_2_alg».proof.Proof.Gen.ReferenceIdeal.Read
import proofs.«152004_j23467701305764_2_alg».proof.Proof.Spec
import proofs.«152004_j23467701305764_2_alg».proof.Proof.Pieces
import proofs.«152004_j23467701305764_2_alg».proof.Proof.Payload
import proofs.«152004_j23467701305764_2_alg».proof.Proof.Blocks
import proofs.«152004_j23467701305764_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the four arguments, the kernel's two result arrays end at the specification of its
    arguments and the reference's at the specification of its own: the same arrays. -/
theorem algebraic : Cert.algebraic_KernelIdeal_ReferenceIdeal := by
  intro m ρ m' ρ' _ hagree
  refine ⟨_, _, Cert.Attn.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, Cert.Attn.Ref.ref_outCtx, (hagree c).1, (hagree c).2.1,
      (hagree c).2.2.1, (hagree c).2.2.2]
  · rw [(h c).2.1, Cert.ReferenceIdeal.Read.val_main_v18_eq, Cert.Attn.Ref.ref_outAlignT, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
